-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S8192x1024 : Shape := ⟨2, ![8192, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S4x4096x1024 .f32) (main_arg1 : FVec F S8192x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S4x4096x1024 : Shape := ⟨3, ![4, 4096, 1024]⟩
abbrev S8192x1024 : Shape := ⟨2, ![8192, 1024]⟩
abbrev S1x2048x1024 : Shape := ⟨3, ![1, 2048, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S8192x1024, .f32⟩
  | .hbm, ⟨2, _⟩ => ⟨S4x4096x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S2048x1024, .f32⟩
  | .local _ .vmem, ⟨3, _⟩ => ⟨S2048x1024, .f32⟩
  | .local _ .vmem, ⟨4, _⟩ => ⟨S1x2048x1024, .f32⟩
  | .local _ .vmem, ⟨5, _⟩ => ⟨S1x2048x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  inb_S2048x1024_S2048x1024_0_0 : ∀ a, (![0, 0] : Fin 2 → Nat) a + S2048x1024.size a ≤ S2048x1024.size a
  h_S2048x1024 : 0 < S2048x1024.numel
  shapeCasts_S2048x1024_S1x2048x1024 : S2048x1024.ShapeCasts S1x2048x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x4096x1024.size a
  hwx0_0 : ∀ i : grid0.Coords, EltTy.bits .f32 = 32 ∨ (Rect.block (s := S4x4096x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x1024.size a
  hwx0_1 : ∀ i : grid0.Coords, EltTy.bits .f32 = 32 ∨ (Rect.block (s := S8192x1024) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S4x4096x1024.size a
  hwx0_2 : ∀ i : grid0.Coords, EltTy.bits .f32 = 32 ∨ (Rect.block (s := S4x4096x1024) S1x2048x1024.size (cc0_transform_2 i) (hinb0_2 i)).WholeWords (EltTy.packing .f32)

variable [Facts₀]

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S8192x1024 : Shape := ⟨2, ![8192, 1024]⟩
abbrev S4096 : Shape := ⟨1, ![4096]⟩
abbrev S1x4096 : Shape := ⟨2, ![1, 4096]⟩
abbrev S4x4096 : Shape := ⟨2, ![4, 4096]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8192x1024, .f32⟩
  | .hbm, ⟨2, _⟩ => ⟨S4096, .i32⟩
  | .hbm, ⟨3, _⟩ => ⟨S1x4096, .i32⟩
  | .hbm, ⟨4, _⟩ => ⟨S4x4096, .i32⟩
  | .hbm, ⟨5, _⟩ => ⟨S_, .i32⟩
  | .hbm, ⟨6, _⟩ => ⟨S4x4096, .i32⟩
  | .hbm, ⟨7, _⟩ => ⟨S4x4096, .i1⟩
  | .hbm, ⟨8, _⟩ => ⟨S_, .i32⟩
  | .hbm, ⟨9, _⟩ => ⟨S4x4096, .i32⟩
  | .hbm, ⟨10, _⟩ => ⟨S4x4096, .i32⟩
  | .hbm, ⟨11, _⟩ => ⟨S4x4096, .i32⟩
  | .hbm, ⟨12, _⟩ => ⟨S4x4096x1, .i32⟩
  | .hbm, ⟨13, _⟩ => ⟨S1, .i32⟩
  | .hbm, ⟨14, _⟩ => ⟨S_, .i32⟩
  | .hbm, ⟨15, _⟩ => ⟨S4x4096x1, .i32⟩
  | .hbm, ⟨16, _⟩ => ⟨S4x4096x1, .i1⟩
  | .hbm, ⟨17, _⟩ => ⟨S1x1x1, .i32⟩
  | .hbm, ⟨18, _⟩ => ⟨S4x4096x1, .i32⟩
  | .hbm, ⟨19, _⟩ => ⟨S4x4096x1, .i1⟩
  | .hbm, ⟨20, _⟩ => ⟨S4x4096x1, .i1⟩
  | .hbm, ⟨21, _⟩ => ⟨S_, .i1⟩
  | .hbm, ⟨22, _⟩ => ⟨S4x4096, .i1⟩
  | .hbm, ⟨23, _⟩ => ⟨S4x4096x1024, .f32⟩
  | .hbm, ⟨24, _⟩ => ⟨S4x4096x1024, .i1⟩
  | .hbm, ⟨25, _⟩ => ⟨S_, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4x4096_0_1 : S1x4096.BroadcastsInDim S4x4096 (![0, 1] : Fin 2 → Fin S4x4096.rank)
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S1_S1x1x1_2 : S1.BroadcastsInDim S1x1x1 (![2] : Fin 1 → Fin S1x1x1.rank)
  bcast_S1x1x1_S4x4096x1_0_1_2 : S1x1x1.BroadcastsInDim S4x4096x1 (![0, 1, 2] : Fin 3 → Fin S4x4096x1.rank)
  reducesTo_S4x4096x1_S4x4096_d2 : S4x4096x1.ReducesTo [2] S4x4096
  h_S_ : 0 < S_.numel
  bcast_S4x4096_S4x4096x1024_0_1 : S4x4096.BroadcastsInDim S4x4096x1024 (![0, 1] : Fin 2 → Fin S4x4096x1024.rank)
  bcast_S_S4x4096x1024 : S_.BroadcastsInDim S4x4096x1024 (![] : Fin 0 → Fin S4x4096x1024.rank)
  gather_S8192x1024_S4x4096x1_S4x4096x1024_2_0_n_n_0_2_11024_wf : GatherDims.WF S8192x1024 S4x4096x1 S4x4096x1024 [2] [0] [] [0] [] 2 ![1, 1024]

variable [Facts₀]

def gather_S8192x1024_S4x4096x1_S4x4096x1024_2_0_n_n_0_2_11024 : GatherDims S8192x1024 S4x4096x1 S4x4096x1024 where
  offsetDims := [2]
  collapsedSliceDims := [0]
  operandBatchingDims := []
  startIndicesBatchingDims := []
  startIndexMap := [0]
  indexVectorDim := 2
  sliceSizes := ![1, 1024]
  wf := gather_S8192x1024_S4x4096x1_S4x4096x1024_2_0_n_n_0_2_11024_wf

class Facts : Prop extends Facts₀ where

variable [Facts]
-- ==== Proof.Spec.lean ====
/-
  The sum of a batch of sequences with a table of positional embeddings, as ONE function of the two arrays:
  entry (b, s, d) of the result is x[b, s, d] + table[s, d]. A sequence has 4096 positions and the table 8192
  rows, so only the table's first 4096 rows are ever read. Stated for any reading of the floats: the sum is the
  one addition the instance provides, applied once per entry, so no law of addition is involved.
-/
import Idealize.ShloMosaic.PureOps.Ideal
import Idealize.ShloMosaic.Lib.ValueIdx

noncomputable section

namespace Cert.PosEmbed

open Idealize.ShloMosaic

/-- The batch of sequences: 4 sequences, 4096 positions, 1024 features. -/
abbrev SX : Shape := ⟨3, ![4, 4096, 1024]⟩
/-- The table: 8192 positions, 1024 features. -/
abbrev SP : Shape := ⟨2, ![8192, 1024]⟩

/-- The table entry that entry (b, s, d) of the batch meets: row s, column d. -/
abbrev tableIdx (i : SX.Idx) : SP.Idx := fun a => match a with
  | ⟨0, _⟩ => ⟨(i 1).val, by have h : (i 1).val < 4096 := (i 1).isLt; show (i 1).val < 8192; omega⟩
  | ⟨1, _⟩ => ⟨(i 2).val, by have h : (i 2).val < 1024 := (i 2).isLt; show (i 2).val < 1024; omega⟩

/-- The result, entry by entry: x[b, s, d] + table[s, d]. -/
def posAdd {F : FTy → Type} [FloatOps F] (x : SX.Idx → Elt F .f32) (p : SP.Idx → Elt F .f32) : SX.Idx → Elt F .f32 :=
  fun i => FloatOps.addf (x i) (p (tableIdx i))

theorem posAdd_apply {F : FTy → Type} [FloatOps F] (x : SX.Idx → Elt F .f32) (p : SP.Idx → Elt F .f32) (i : SX.Idx) :
    posAdd x p i = FloatOps.addf (x i) (p (tableIdx i)) := rfl

end Cert.PosEmbed

end
-- ==== Proof.KernelValue.lean ====
/-
  What the kernel leaves in its result array, as one function of the two argument arrays.

  The grid has 2 x 4 points (s, b): point (s, b) stages rows 2048 s … 2048 s + 2047 of sequence b of the batch, the
  same 2048 rows of the table, adds them entry by entry (the table block first re-laid as a block of one
  sequence, which moves no entry) and writes the sum back over rows 2048 s … 2048 s + 2047 of sequence b of the result.
  So the block point (s, b) writes is the block of `posAdd` at the same place — the batch block sits exactly
  under the result block, and the table block at row offset 2048 s, which is the result block's position offset —
  and the 8 blocks tile the result: entry (b, s', d) lies in the block of point (s' / 2048, b).
-/
import proofs.«159678_g11656541241934_week1_w4_1186_9_alg».proof.Proof.Gen.KernelIdeal.Value
import proofs.«159678_g11656541241934_week1_w4_1186_9_alg».proof.Proof.Spec
import Idealize.ShloMosaic.Lib.Pipeline.Value

noncomputable section

namespace Cert.KernelIdeal.Whole

open Cert.KernelIdeal Cert.KernelIdeal.Gen Cert.KernelIdeal.Value Cert.PosEmbed
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- One point's work on its two staged blocks: the batch block plus the table block, entry (0, r, d) of the one
    meeting entry (r, d) of the other. -/
theorem block_sum (x0 : Vec F S1x2048x1024 .f32) (x1 : Vec F S2048x1024 .f32) : out0_2 x0 x1 = E2 x0 x1 := by
  unfold out0_2
  funext y
  rw [View.ld_unit_zero zero3, View.ld_unit_zero zero2]
  exact canon2_eq x0 x1 y

/-- Where the three windows sit at a grid point: the batch block under the result block; the table block at the
    result block's position offset, column offset 0. -/
theorem windows_at : ∀ t : Fin cfg0.N,
    win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_1.index t (0 : Fin 2) = win0_2.index t (1 : Fin 3)
    ∧ win0_1.index t (1 : Fin 2) = win0_2.index t (2 : Fin 3)
    ∧ win0_2.index t (2 : Fin 3) = 0 :=
  (by decide +kernel : ∀ t : Fin grid0.N, _)

/-- Every (sequence, half of the positions) is some point's result block. -/
theorem windows_onto : ∀ (q0 : Fin 4) (q1 : Fin 2), ∃ t : Fin cfg0.N, win0_2.index t = ![q0.val, q1.val, 0] :=
  (by decide +kernel : ∀ (q0 : Fin 4) (q1 : Fin 2), ∃ t : Fin grid0.N, win0_2.index t = ![q0.val, q1.val, 0])

/-- What point `t` writes back is block `t` of `posAdd` of the argument arrays. -/
theorem flushed_eq (c : Dev nD) (t : Fin cfg0.N) :
    (dats m 0 c).flushed 2 t = ((cfg0.win 2).blk t).view.read (Elt F) (posAdd (V m c main_arg0) (V m c main_arg1)) := by
  refine (flushed2 m c t).trans ?_
  refine (congrArg ((cfg0.win 2).cut (grid0.coords t)) (block_sum (iblk m c 0 t) (iblk m c 1 t))).trans ?_
  obtain ⟨e0, e1, e2, e3, e4, e5⟩ := windows_at t
  funext j
  show FloatOps.addf (V m c main_arg0 (((cfg0.win 0).blk t).view.emb (ix2_0 j))) (V m c main_arg1 (((cfg0.win 1).blk t).view.emb (ix2_1 j)))
    = FloatOps.addf (V m c main_arg0 (((cfg0.win 2).blk t).view.emb j)) (V m c main_arg1 (tableIdx (((cfg0.win 2).blk t).view.emb j)))
  have hj0 : (j 0).val < 1 := (j 0).isLt
  have h0 : ((cfg0.win 0).blk t).view.emb (ix2_0 j) = ((cfg0.win 2).blk t).view.emb j := by
    funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 2048 + 1 * (j 1).val = win0_2.index t (1 : Fin 3) * 2048 + 1 * (j 1).val; omega
    | ⟨2, _⟩ => show win0_0.index t (2 : Fin 3) * 1024 + 1 * (j 2).val = win0_2.index t (2 : Fin 3) * 1024 + 1 * (j 2).val; omega
  have h1 : ((cfg0.win 1).blk t).view.emb (ix2_1 j) = tableIdx (((cfg0.win 2).blk t).view.emb j) := by
    funext a; apply Fin.ext
    match a with
    | ⟨0, _⟩ => show win0_1.index t (0 : Fin 2) * 2048 + 1 * (j 1).val = win0_2.index t (1 : Fin 3) * 2048 + 1 * (j 1).val; omega
    | ⟨1, _⟩ => show win0_1.index t (1 : Fin 2) * 1024 + 1 * (j 2).val = win0_2.index t (2 : Fin 3) * 1024 + 1 * (j 2).val; omega
  rw [h0, h1]

/-- An entry of the result is in point `t`'s block iff each coordinate is in the block's range on its axis. -/
theorem mem_blk (t : Fin cfg0.N) (i : S4x4096x1024.Idx) :
    i ∈ ((cfg0.win 2).blk t).view.set ↔ ∀ a : Fin 3, win0_2.index t a * S1x2048x1024.size a ≤ (i a).val ∧ (i a).val < win0_2.index t a * S1x2048x1024.size a + S1x2048x1024.size a := by
  show i ∈ ((View.whole main_v0).slice (win0_2.rect t)).set ↔ _
  rw [View.set_slice_whole, Rect.mem_set_unit]
  exact Iff.rfl

/-- The blocks tile the result: entry (b, s, d) is in the block of the point whose result block is (b, s / 2048, 0). -/
theorem covered (i : S4x4096x1024.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 1024 := (i 2).isLt
  obtain ⟨t, ht⟩ := windows_onto ⟨(i 0).val, hi0⟩ ⟨(i 1).val / 2048, by omega⟩
  have q0 : win0_2.index t (0 : Fin 3) = (i 0).val := congrFun ht 0
  have q1 : win0_2.index t (1 : Fin 3) = (i 1).val / 2048 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 1024 ≤ (i 2).val ∧ (i 2).val < win0_2.index t (2 : Fin 3) * 1024 + 1024; omega

/-- The result array after the run is `posAdd` of the argument arrays as launched. -/
theorem final (c : Dev nD) :
    (dats m 0 c).arrAt 2 cfg0.N = posAdd (m ((c : Thread nD τ).loc main_arg0)) (m ((c : Thread nD τ).loc main_arg1)) :=
  (dats m 0 c).arrAt_eq_of_cover 2 (posAdd (V m c main_arg0) (V m c main_arg1)) (fun t _ => flushed_eq m c t) covered

/-- The kernel's run: it ends with the result array at `posAdd` of the arguments, and the arguments unchanged. -/
theorem run : θ_run defs (onTc (τ := τ) (main (F := F))) ⟨m, fun _ => 0, ρ⟩ fun r => ∀ c : Dev nD,
      r.2.mem ((c : Thread nD τ).loc main_v0) = posAdd (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefRun.lean ====
/-
  The reference program's run, read back as a term of its two arguments.

  The reference is a straight line of 27 host operations once its two helper functions are written out at
  their calls: the positions 0 … 4095 (an iota, broadcast over the 4 sequences); the table lookup `take` — a
  negative position would be wrapped by adding 8192, the position is used as the start row of a one-row slice of
  the table (a gather), and a position outside 0 … 8191 would give NaN instead of a table row —; and the sum with
  the batch. `out` is that composed term; `run` says every execution ends with the result buffer at `out` of the
  arguments as launched, and the arguments unchanged.
-/
import proofs.«159678_g11656541241934_week1_w4_1186_9_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations in order, the two helper functions written out where they are called: the lookup's
    twenty-three operations over the call's own buffers (its select, the one operation of the inner helper, among
    them), between the three operations that make the positions and the final sum. -/
abbrev ops : List (HloOp τ sig (Elt F)) :=
  [ nullary main_v0 (iotaInDim S4096 32 0),
    unary main_v0 main_v1 (broadcastInDim S1x4096 ![1] bcast_S4096_S1x4096_1 : (⟨S4096, .i32⟩ : BufTy).Contents (Elt F) → (⟨S1x4096, .i32⟩ : BufTy).Contents (Elt F)),
    unary main_v1 main_v2 (broadcastInDim S4x4096 ![0, 1] bcast_S1x4096_S4x4096_0_1 : (⟨S1x4096, .i32⟩ : BufTy).Contents (Elt F) → (⟨S4x4096, .i32⟩ : BufTy).Contents (Elt F)),
    TRef.nullary main_call0.c (constantI S_ 32 0#32),
    TRef.unary main_call0.c main_call0.v0 (broadcastInDim S4x4096 ![] bcast_S_S4x4096),
    TRef.binary (.of main_v2) main_call0.v0 main_call0.v1 (cmpi .slt),
    TRef.nullary main_call0.c_0 (constantI S_ 32 8192#32),
    TRef.unary main_call0.c_0 main_call0.v2 (broadcastInDim S4x4096 ![] bcast_S_S4x4096),
    TRef.binary (.of main_v2) main_call0.v2 main_call0.v3 addi,
    TRef.ternary main_call0.v1 main_call0.v3 (.of main_v2) main_call0.call0.v0 select,
    TRef.unary main_call0.call0.v0 main_call0.v5 (broadcastInDim S4x4096x1 ![0, 1] bcast_S4x4096_S4x4096x1_0_1),
    TRef.nullary main_call0.c_1 (constantI S1 32 8191#32),
    TRef.nullary main_call0.c_2 (constantI S_ 32 0#32),
    TRef.unary main_call0.c_2 main_call0.v6 (broadcastInDim S4x4096x1 ![] bcast_S_S4x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x4096x1 ![0, 1, 2] bcast_S1x1x1_S4x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x4096x1_S4x4096_d2 h_S_),
    TRef.binary (.of main_arg1) main_call0.v5 main_call0.v13 (fun x i => Host.gather gather_S8192x1024_S4x4096x1_S4x4096x1024_2_0_n_n_0_2_11024 x i),
    TRef.unary main_call0.v12 main_call0.v14 (broadcastInDim S4x4096x1024 ![0, 1] bcast_S4x4096_S4x4096x1024_0_1),
    TRef.nullary main_call0.cst (constant S_ .f32 0x7FC00000#32),
    TRef.unary main_call0.cst main_call0.v15 (broadcastInDim S4x4096x1024 ![] bcast_S_S4x4096x1024),
    TRef.ternary main_call0.v14 main_call0.v13 main_call0.v15 main_call0.v16 select,
    binary main_arg0 main_v3 main_v4 (addf : (⟨S4x4096x1024, .f32⟩ : BufTy).Contents (Elt F) → (⟨S4x4096x1024, .f32⟩ : BufTy).Contents (Elt F) → (⟨S4x4096x1024, .f32⟩ : BufTy).Contents (Elt F)) ]

set_option maxRecDepth 1024 in
/-- The program is that straight line: the helpers' definitions unfolded at their calls, both sides are one chain
    of steps once sequencing is re-associated. -/
theorem main_eq (c : Dev nD) : main (F := F) c = seq ops := by
  simp only [main, fn_take.body, fn_where.body, seq, bind_assoc, pure_bind]

/-- The positions a lookup is made at, one per (sequence, position): 0 … 4095 along each sequence. -/
def positions : IVec S4x4096 32 :=
  broadcastInDim S4x4096 ![0, 1] bcast_S1x4096_S4x4096_0_1 (broadcastInDim S1x4096 ![1] bcast_S4096_S1x4096_1 (iotaInDim S4096 32 0))

/-- The start rows of the lookup: a negative position wrapped by adding the table's 8192 rows, laid out with a
    trailing axis of extent 1. -/
def startRows : IVec S4x4096x1 32 :=
  broadcastInDim S4x4096x1 ![0, 1] bcast_S4x4096_S4x4096x1_0_1
    (select (cmpi .slt positions (broadcastInDim S4x4096 ![] bcast_S_S4x4096 (constantI S_ 32 0#32)))
      (addi positions (broadcastInDim S4x4096 ![] bcast_S_S4x4096 (constantI S_ 32 8192#32))) positions)

/-- Whether each start row is a row of the table: 0 ≤ row ≤ 8191, the conjunction taken over the trailing axis. -/
def inTable : IVec S4x4096 1 :=
  Host.reduce IntOp.andi
    (andi (cmpi .sge startRows (broadcastInDim S4x4096x1 ![] bcast_S_S4x4096x1 (constantI S_ 32 0#32)))
      (cmpi .sle startRows (broadcastInDim S4x4096x1 ![0, 1, 2] bcast_S1x1x1_S4x4096x1_0_1_2
        (broadcastInDim S1x1x1 ![2] bcast_S1_S1x1x1_2 (constantI S1 32 8191#32)))))
    (constantI S_ 1 1#1) reducesTo_S4x4096x1_S4x4096_d2 h_S_

/-- The reference's result as a term of its arguments: the batch plus the looked-up rows, a row outside the table
    replaced by NaN. -/
def out (x : FVec F S4x4096x1024 .f32) (p : FVec F S8192x1024 .f32) : FVec F S4x4096x1024 .f32 :=
  addf x (select (broadcastInDim S4x4096x1024 ![0, 1] bcast_S4x4096_S4x4096x1024_0_1 inTable)
    (Host.gather gather_S8192x1024_S4x4096x1_S4x4096x1024_2_0_n_n_0_2_11024 p startRows)
    (broadcastInDim S4x4096x1024 ![] bcast_S_S4x4096x1024 (constant S_ .f32 0x7FC00000#32)))

attribute [local irreducible] Host.reduce Host.gather in
set_option maxRecDepth 8192 in
set_option maxHeartbeats 400000 in
/-- The fold of the operations at the result buffer is `out` of the argument buffers: each operation's result decides
    whether the buffer read is the one it writes; the reduction and the gather stay folded meanwhile. -/
theorem out_eq (V : Valuation τ sig (Elt F)) :
    after ops V (main_v4 : DevRef τ sig) = out (V (main_arg0 : DevRef τ sig)) (V (main_arg1 : DevRef τ sig)) := by
  after_results
  simp only [TRef.ofBuf, TRef.toBuf, cast_cast, cast_eq]
  unfold out inTable startRows positions
  rfl

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub ..⟩

/-- On every device, for any reading of the floats, from any memory with zero counters: every weakly fair execution
    of the reference terminates with its result at `out` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v4).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.LibIdx.lean ====
/-
  Indices of arrays of small rank, written by coordinates: an index whose coordinates are given numbers is the index
  built from them.  Used to identify an index computed by a window's block map, or by a contraction's operand map, with
  the index a specification names.
-/
import Idealize.ShloMosaic.Lib.ValueIdx

namespace Cert.Proof.LibIdx

open Idealize.ShloMosaic Idealize.ShloMosaic.ValueIdx

/-- A rank-1 index with the given coordinate is the index built from it. -/
theorem ix1_ext {n0 : Nat} (x : (⟨1, ![n0]⟩ : Shape).Idx) (a : Fin n0) (h0 : (x 0 : ℕ) = a) : x = ix1 a := by
  have e0 : x 0 = a := Fin.ext h0
  exact (eq_ix1 x).trans (by rw [e0]; rfl)

/-- A rank-2 index with the given coordinates is the index built from them. -/
theorem ix2_ext {n0 n1 : Nat} (x : (⟨2, ![n0, n1]⟩ : Shape).Idx) (a : Fin n0) (b : Fin n1)
    (h0 : (x 0 : ℕ) = a) (h1 : (x 1 : ℕ) = b) : x = ix2 a b := by
  have e0 : x 0 = a := Fin.ext h0
  have e1 : x 1 = b := Fin.ext h1
  exact (eq_ix2 x).trans (by rw [e0, e1]; rfl)

/-- A rank-3 index with the given coordinates is the index built from them. -/
theorem ix3_ext {n0 n1 n2 : Nat} (x : (⟨3, ![n0, n1, n2]⟩ : Shape).Idx) (a : Fin n0) (b : Fin n1) (c : Fin n2)
    (h0 : (x 0 : ℕ) = a) (h1 : (x 1 : ℕ) = b) (h2 : (x 2 : ℕ) = c) : x = ix3 a b c := by
  have e0 : x 0 = a := Fin.ext h0
  have e1 : x 1 = b := Fin.ext h1
  have e2 : x 2 = c := Fin.ext h2
  exact (eq_ix3 x).trans (by rw [e0, e1, e2]; rfl)

end Cert.Proof.LibIdx
-- ==== Proof.LibTake.lean ====
/-
  Reading a table lookup along the first axis — `jnp.take(table, positions, axis = 0)` with the default handling of
  positions outside the table — one piece at a time, for any table `[N, D]` and any positions `[R, C]`:

  * a position below 2^31, held as a 32-bit word, read back as a signed integer, and its comparisons with 0 and
    with a bound;
  * a conjunction over an axis (`stablehlo.reduce` by `and` from 1) of words that are all 1 is 1;
  * the gather of one row per position: result entry (r, c, d) is the table's entry (row, d), where row is the
    start index at (r, c, 0) read signed and clamped into 0 … N − 1.
-/
import Idealize.ShloMosaic.Lib.ValueIdx
import Idealize.ShloMosaic.Lib.ReduceAll
import proofs.«159678_g11656541241934_week1_w4_1186_9_alg».proof.Proof.LibIdx

namespace Cert.Proof.LibTake

open Idealize.ShloMosaic Idealize.ShloMosaic.ValueIdx Cert.Proof.LibIdx

/-! ## A small natural number as a 32-bit word, read signed -/

/-- A number below 2^31, as a 32-bit word, reads back signed as itself. -/
theorem toInt_ofNat_small (n : Nat) (h : n < 2147483648) : (BitVec.ofNat 32 n).toInt = (n : Int) := by
  rw [BitVec.toInt_eq_toNat_cond, BitVec.toNat_ofNat]
  have e : n % 2 ^ 32 = n := Nat.mod_eq_of_lt (by omega)
  rw [e]
  split <;> omega

/-- … and so its signed value as a natural number is itself. -/
theorem toInt_toNat_ofNat_small (n : Nat) (h : n < 2147483648) : (BitVec.ofNat 32 n).toInt.toNat = n := by
  rw [toInt_ofNat_small n h]; rfl

/-- It is not negative … -/
theorem cmpi_slt_zero (n : Nat) (h : n < 2147483648) : IntOp.cmpi .slt (BitVec.ofNat 32 n) 0#32 = 0#1 := by
  have e : (BitVec.ofNat 32 n).slt 0#32 = false := by
    rw [BitVec.slt, toInt_ofNat_small n h, decide_eq_false_iff_not]
    show ¬ ((n : Int) < 0)
    omega
  show BitVec.ofBool ((BitVec.ofNat 32 n).slt 0#32) = 0#1
  rw [e]; rfl

/-- … that is, it is at least 0 … -/
theorem cmpi_sge_zero (n : Nat) (h : n < 2147483648) : IntOp.cmpi .sge (BitVec.ofNat 32 n) 0#32 = 1#1 := by
  have e : (0#32 : BitVec 32).sle (BitVec.ofNat 32 n) = true := by
    rw [BitVec.sle, toInt_ofNat_small n h, decide_eq_true_iff]
    show (0 : Int) ≤ (n : Int)
    omega
  show BitVec.ofBool ((0#32 : BitVec 32).sle (BitVec.ofNat 32 n)) = 1#1
  rw [e]; rfl

/-- … and it is at most any bound `k` below 2^31 that it does not exceed. -/
theorem cmpi_sle_bound (n k : Nat) (hk : k < 2147483648) (h : n ≤ k) :
    IntOp.cmpi .sle (BitVec.ofNat 32 n) (BitVec.ofNat 32 k) = 1#1 := by
  have e : (BitVec.ofNat 32 n).sle (BitVec.ofNat 32 k) = true := by
    rw [BitVec.sle, toInt_ofNat_small n (by omega), toInt_ofNat_small k hk, decide_eq_true_iff]
    omega
  show BitVec.ofBool ((BitVec.ofNat 32 n).sle (BitVec.ofNat 32 k)) = 1#1
  rw [e]; rfl

/-! ## A conjunction of ones -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi (1#1) (1#1) = 1#1 := by decide
    rw [List.foldl_cons, hf a, e]
    exact foldl_andi_ones f hf l

/-- A `stablehlo.reduce` by `and`, from an initial value 1, of an array whose entries are all 1 is 1 at every index,
    whatever axes it reduces. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl, hinit]
  exact foldl_andi_ones x hx _

/-! ## One table row per position -/

section TakeRows
variable {α : Type}

/-- The dimension numbers of `table[positions]` for a table `[N, D]`, start indices `[R, C, 1]` and a result
    `[R, C, D]`: the row axis collapsed and indexed, the feature axis kept whole as the result's last axis. -/
abbrev takeRowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The start-indices index `[r, c, 0]` under result index `(r, c, d)`. -/
abbrev startIdx {R C D : Nat} (y : (⟨3, ![R, C, D]⟩ : Shape).Idx) : (⟨3, ![R, C, 1]⟩ : Shape).Idx :=
  fun a => match a with
    | ⟨0, _⟩ => ⟨(y 0).val, (y 0).isLt⟩
    | ⟨1, _⟩ => ⟨(y 1).val, (y 1).isLt⟩
    | ⟨2, _⟩ => ⟨0, Nat.one_pos⟩

/-- THE ROW GATHER READ AT `(r, c, d)`: the table at (row, d), the row being the start index at `[r, c, 0]` read signed
    and clamped into `[0, N − 1]`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (takeRowsDims N D R C wf) x idx y
      = x (ix2 (⟨min (idx (startIdx y)).toInt.toNat (N - 1), by omega⟩ : Fin N) (⟨(y 2).val, (y 2).isLt⟩ : Fin D)) := by
  unfold Host.gather
  refine congrArg x (ix2_ext _ _ _ ?_ ?_)
  · show (takeRowsDims N D R C wf).start y idx 0 + (takeRowsDims N D R C wf).batchCoord y 0
        + (takeRowsDims N D R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowsDims N D R C wf).startIndexMap from List.mem_singleton.mpr rfl)]
    have hsi : (takeRowsDims N D R C wf).siIdx y ⟨List.idxOf (0 : Fin 2) (takeRowsDims N D R C wf).startIndexMap,
        List.idxOf_lt_length_iff.2 (List.mem_singleton.mpr rfl)⟩ = startIdx y := by
      funext b; refine Fin.ext ?_
      match b with
      | ⟨0, _⟩ => rfl
      | ⟨1, _⟩ => rfl
      | ⟨2, _⟩ => rfl
    rw [hsi]
    rfl
  · show (takeRowsDims N D R C wf).start y idx 1 + (takeRowsDims N D R C wf).batchCoord y 1
        + (takeRowsDims N D R C wf).offCoord y 1 = (y 2).val
    have hs : (takeRowsDims N D R C wf).start y idx 1 = 0 := by
      unfold GatherDims.start
      rw [dif_neg (show (1 : Fin 2) ∉ ([0] : List (Fin 2)) from by decide)]
    have ho : (takeRowsDims N D R C wf).offCoord y 1 = (y 2).val := by
      unfold GatherDims.offCoord
      rw [dif_pos ((GatherDims.mem_sKept _ _).mpr ⟨(show (1 : Fin 2) ∉ ([0] : List (Fin 2)) from by decide), List.not_mem_nil⟩)]
      rfl
    rw [hs, ho, GatherDims.batchCoord_eq_zero _ _ _ List.not_mem_nil]
    omega

end TakeRows

end Cert.Proof.LibTake
-- ==== Proof.RefValue.lean ====
/-
  The reference's result term is `posAdd`: entry (b, s, d) of it is x[b, s, d] + table[s, d].

  The position looked up at (b, s) is s, a number below 4096. So it is not negative (the wrap-around by 8192 is not
  taken), it lies in 0 … 8191 (the lookup's out-of-table test passes everywhere and no NaN is substituted), and the
  gather's clamp into 0 … 8191 leaves it as it is: the row gathered for (b, s) is row s of the table. Nothing here
  depends on how floats are read: the one float operation is the final sum, the same on both sides.
-/
import proofs.«159678_g11656541241934_week1_w4_1186_9_alg».proof.Proof.RefRun
import proofs.«159678_g11656541241934_week1_w4_1186_9_alg».proof.Proof.Spec
import proofs.«159678_g11656541241934_week1_w4_1186_9_alg».proof.Proof.LibTake
import Idealize.ShloMosaic.Lib.Pipeline.Value
import Idealize.ShloMosaic.Lib.IdealHost
import Idealize.ShloMosaic.Lib.ValueLayout

noncomputable section

namespace Cert.ReferenceIdeal.RefValue

open Cert.ReferenceIdeal Cert.ReferenceIdeal.Gen Cert.ReferenceIdeal.RefRun Cert.PosEmbed Cert.Proof.LibTake
open Idealize.ShloMosaic Idealize.ShloMosaic.ValueIdx

variable {F : FTy → Type} [FloatOps F]

/-- The position looked up for sequence `b` at place `s` is `s`. -/
theorem positions_apply (b : Fin 4) (s : Fin 4096) : positions (ix2 b s) = BitVec.ofNat 32 s.val := by
  unfold positions
  rw [broadcastInDim_apply _ _ _ (ix2 b s) (ix2 (0 : Fin 1) s) (fun a => by match a with | ⟨0, _⟩ => rfl | ⟨1, _⟩ => rfl)]
  rw [broadcastInDim_apply _ _ _ (ix2 (0 : Fin 1) s) (ix1 s) (fun a => by match a with | ⟨0, _⟩ => rfl)]
  rfl

/-- The start row of the lookup at (b, s) is `s` too: `s` is not negative, so it is not wrapped. -/
theorem startRows_apply (b : Fin 4) (s : Fin 4096) (z : Fin 1) : startRows (ix3 b s z) = BitVec.ofNat 32 s.val := by
  have hs : s.val < 4096 := s.isLt
  unfold startRows
  rw [broadcastInDim_apply _ _ _ (ix3 b s z) (ix2 b s) (fun a => by match a with | ⟨0, _⟩ => rfl | ⟨1, _⟩ => rfl)]
  show Scalar.select (IntOp.cmpi .slt (positions (ix2 b s)) 0#32) _ (positions (ix2 b s)) = _
  rw [positions_apply, cmpi_slt_zero _ (by omega), select_zero]

/-- Every start row is a row of the table: the lookup's out-of-table test passes everywhere. -/
theorem inTable_apply (j : S4x4096.Idx) : inTable j = 1#1 := by
  unfold inTable
  refine reduce_andi_ones _ _ _ _ (fun k => ?_) rfl j
  obtain ⟨b, s, z, rfl⟩ : ∃ (b : Fin 4) (s : Fin 4096) (z : Fin 1), k = ix3 b s z := ⟨k 0, k 1, k 2, eq_ix3 k⟩
  have hs : s.val < 4096 := s.isLt
  show IntOp.andi (IntOp.cmpi .sge (startRows (ix3 b s z)) 0#32) (IntOp.cmpi .sle (startRows (ix3 b s z)) 8191#32) = 1#1
  rw [startRows_apply, cmpi_sge_zero _ (by omega), cmpi_sle_bound _ 8191 (by omega) (by omega)]
  decide

/-- The reference's result term is `posAdd` of its arguments. -/
theorem result_eq (x : FVec F S4x4096x1024 .f32) (p : FVec F S8192x1024 .f32) : out x p = posAdd x p := by
  funext i
  obtain ⟨b, s, d, rfl⟩ : ∃ (b : Fin 4) (s : Fin 4096) (d : Fin 1024), i = ix3 b s d := ⟨i 0, i 1, i 2, eq_ix3 i⟩
  have hs : s.val < 4096 := s.isLt
  rw [posAdd_apply]
  unfold out
  show FloatOps.addf (x (ix3 b s d))
      (Scalar.select ((broadcastInDim S4x4096x1024 ![0, 1] bcast_S4x4096_S4x4096x1024_0_1 inTable) (ix3 b s d))
        (Host.gather gather_S8192x1024_S4x4096x1_S4x4096x1024_2_0_n_n_0_2_11024 p startRows (ix3 b s d)) _) = _
  rw [broadcastInDim_apply _ _ inTable (ix3 b s d) (ix2 b s) (fun a => by match a with | ⟨0, _⟩ => rfl | ⟨1, _⟩ => rfl),
    inTable_apply, select_one]
  refine congrArg (FloatOps.addf (x (ix3 b s d))) ?_
  refine (gather_rows_apply (N := 8192) (D := 1024) (R := 4) (C := 4096) (by decide)
    gather_S8192x1024_S4x4096x1_S4x4096x1024_2_0_n_n_0_2_11024_wf p startRows (ix3 b s d)).trans ?_
  refine congrArg p ?_
  have e : startRows (startIdx (ix3 b s d)) = BitVec.ofNat 32 s.val := by
    have e' : startIdx (ix3 b s d) = ix3 b s (0 : Fin 1) := by
      funext a
      match a with
      | ⟨0, _⟩ => rfl
      | ⟨1, _⟩ => rfl
      | ⟨2, _⟩ => rfl
    rw [e', startRows_apply]
  funext a; apply Fin.ext
  match a with
  | ⟨0, _⟩ =>
    show min (startRows (startIdx (ix3 b s d))).toInt.toNat (8192 - 1) = s.val
    rw [e, toInt_toNat_ofNat_small _ (by omega)]
    omega
  | ⟨1, _⟩ => rfl

end Cert.ReferenceIdeal.RefValue

end
-- ==== Proof.lean ====
/-
  A batch of sequences plus a table of positional embeddings: out[b, s, d] = x[b, s, d] + table[s, d], for
  x of 4 x 4096 x 1024 entries and a table of 8192 x 1024.

  The kernel walks the result in 8 blocks of 2048 positions of one sequence, adding to each block of x the 2048 rows of
  the table at the same positions; the blocks tile the result, so the result array ends as that one function of the
  two arrays, `posAdd` (Proof/KernelValue.lean, over the generated frame run and block equations). The reference
  looks the rows up: positions 0 … 4095, a general lookup that would wrap a negative position, clamp a start row and
  put NaN where a position falls outside the table — none of which happens for positions below 4096 — and then the
  same sum, so its result is `posAdd` too (Proof/RefRun.lean: the run; Proof/RefValue.lean: the term). The two results
  are the same function entry by entry; no law of the extended reals is used and the inputs' finiteness is never
  opened. The idealization rewrote nothing, so nothing is owed for it.
-/
import proofs.«159678_g11656541241934_week1_w4_1186_9_alg».proof.Defs
import proofs.«159678_g11656541241934_week1_w4_1186_9_alg».proof.Proof.Gen.Kernel
import proofs.«159678_g11656541241934_week1_w4_1186_9_alg».proof.Proof.Gen.Kernel.Skeleton
import proofs.«159678_g11656541241934_week1_w4_1186_9_alg».proof.Proof.Gen.Kernel.Launch
import proofs.«159678_g11656541241934_week1_w4_1186_9_alg».proof.Proof.Gen.Kernel.Points
import proofs.«159678_g11656541241934_week1_w4_1186_9_alg».proof.Proof.Gen.Kernel.Frame
import proofs.«159678_g11656541241934_week1_w4_1186_9_alg».proof.Proof.Gen.KernelIdeal
import proofs.«159678_g11656541241934_week1_w4_1186_9_alg».proof.Proof.Gen.KernelIdeal.Skeleton
import proofs.«159678_g11656541241934_week1_w4_1186_9_alg».proof.Proof.Gen.KernelIdeal.Launch
import proofs.«159678_g11656541241934_week1_w4_1186_9_alg».proof.Proof.Gen.KernelIdeal.Points
import proofs.«159678_g11656541241934_week1_w4_1186_9_alg».proof.Proof.Gen.KernelIdeal.Frame
import proofs.«159678_g11656541241934_week1_w4_1186_9_alg».proof.Proof.Gen.KernelIdeal.Value
import proofs.«159678_g11656541241934_week1_w4_1186_9_alg».proof.Proof.Gen.ReferenceIdeal
import proofs.«159678_g11656541241934_week1_w4_1186_9_alg».proof.Proof.Gen.Pre_finite_inputs
import proofs.«159678_g11656541241934_week1_w4_1186_9_alg».proof.Proof.KernelValue
import proofs.«159678_g11656541241934_week1_w4_1186_9_alg».proof.Proof.RefRun
import proofs.«159678_g11656541241934_week1_w4_1186_9_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and leaves its two arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization changed no operation. -/
theorem preserves : Cert.preserves_Kernel_KernelIdeal := trivial

/-- From memories that agree on x and the table, the kernel ends with its result at `posAdd` of them and the
    reference with its result at its lookup-and-sum term of them, which is `posAdd` of them as well. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
